-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S8x16x9x4096 : Shape := ⟨4, ![8, 16, 9, 4096]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S8x16x9x4096 : S_.BroadcastsInDim S8x16x9x4096 (![] : Fin 0 → Fin S8x16x9x4096.rank)
  reducesTo_S8x16x9x4096_S_d0_1_2_3 : S8x16x9x4096.ReducesTo [0, 1, 2, 3] S_

variable [Facts]

def fn {F : FTy → Type} [FloatOps F] (main_arg0 : FVec F S8x256x64x64 .f32) (main_arg1 : FVec F S8x16x9x4096 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S8x16x9x4096 .f32 := Host.absf main_arg1
  let main_cst_0 : FVec F S_ .f32 := constant S_ .f32 0x7F800000#32
  let main_v5 : FVec F S8x16x9x4096 .f32 := broadcastInDim S8x16x9x4096 ![] bcast_S_S8x16x9x4096 main_cst_0
  let main_v6 : IVec S8x16x9x4096 1 := cmpf .olt main_v4 main_v5
  let main_c_1 : IVec S_ 1 := constantI S_ 1 1#1
  let main_v7 : IVec S_ 1 := (fun x v => Host.reduce IntOp.andi x v reducesTo_S8x16x9x4096_S_d0_1_2_3 h_S_) main_v6 main_c_1
  let main_v8 : IVec S_ 1 := andi main_v3 main_v7
  main_v8
-- ==== Kernel.lean ====
abbrev S8x256x64x64 : Shape := ⟨4, ![8, 256, 64, 64]⟩
abbrev S8x16x9x4096 : Shape := ⟨4, ![8, 16, 9, 4096]⟩
abbrev S8x16x16x64x64 : Shape := ⟨5, ![8, 16, 16, 64, 64]⟩
abbrev S_ : Shape := ⟨0, ![]⟩
abbrev S8x16x16x66x66 : Shape := ⟨5, ![8, 16, 16, 66, 66]⟩
abbrev S8x16x9x64x64 : Shape := ⟨5, ![8, 16, 9, 64, 64]⟩
abbrev S1x1x16x66x66 : Shape := ⟨5, ![1, 1, 16, 66, 66]⟩
abbrev S1x16x9x64x64 : Shape := ⟨5, ![1, 16, 9, 64, 64]⟩
abbrev S1x1x16x64x64 : Shape := ⟨5, ![1, 1, 16, 64, 64]⟩
abbrev S16x64x64 : Shape := ⟨3, ![16, 64, 64]⟩
abbrev S1x16x1x64x64 : Shape := ⟨5, ![1, 16, 1, 64, 64]⟩

abbrev nBuf : Space → Nat
  | .hbm => 9
  | .vmem => 6
  | .smem => 0
  | _ => 0

abbrev bufTy : (tb : Table) → Fin (tcTables nBuf tb) → BufTy
  | .hbm, ⟨0, _⟩ => ⟨S8x256x64x64, .f32⟩
  | .hbm, ⟨1, _⟩ => ⟨S8x16x9x4096, .f32⟩
  | .hbm, ⟨2, _⟩ => ⟨S8x16x16x64x64, .f32⟩
  | .hbm, ⟨3, _⟩ => ⟨S_, .i32⟩
  | .hbm, ⟨4, _⟩ => ⟨S_, .f32⟩
  | .hbm, ⟨5, _⟩ => ⟨S8x16x16x66x66, .f32⟩
  | .hbm, ⟨6, _⟩ => ⟨S8x16x9x64x64, .f32⟩
  | .hbm, ⟨7, _⟩ => ⟨S8x16x16x64x64, .f32⟩
  | .hbm, ⟨8, _⟩ => ⟨S8x256x64x64, .f32⟩
  | .local _ .vmem, ⟨0, _⟩ => ⟨S1x1x16x66x66, .f32⟩
  | .local _ .vmem, ⟨1, _⟩ => ⟨S1x1x16x66x66, .f32⟩
  | .local _ .vmem, ⟨2, _⟩ => ⟨S1x16x9x64x64, .f32⟩
  | .local _ .vmem, ⟨3, _⟩ => ⟨S1x16x9x64x64, .f32⟩
  | .local _ .vmem, ⟨4, _⟩ => ⟨S1x1x16x64x64, .f32⟩
  | .local _ .vmem, ⟨5, _⟩ => ⟨S1x1x16x64x64, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x16x66x66 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x9x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x16x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x256x64x64_S8x16x16x64x64 : S8x256x64x64.ShapeCasts S8x16x16x64x64
  pads_S8x16x16x64x64_S8x16x16x66x66_000_000_000_110_110 : S8x16x16x64x64.Pads (![0, 0, 0, 1, 1] : Fin 5 → Nat) ![0, 0, 0, 1, 1] ![0, 0, 0, 0, 0] S8x16x16x66x66
  h_S_ : 0 < S_.numel
  shapeCasts_S8x16x9x4096_S8x16x9x64x64 : S8x16x9x4096.ShapeCasts S8x16x9x64x64
  inb_S1x1x16x66x66_S1x1x16x64x64_0_0_0_0_0 : ∀ a, (![0, 0, 0, 0, 0] : Fin 5 → Nat) a + S1x1x16x64x64.size a ≤ S1x1x16x66x66.size a
  h_S1x1x16x64x64 : 0 < S1x1x16x64x64.numel
  shapeCasts_S1x1x16x64x64_S16x64x64 : S1x1x16x64x64.ShapeCasts S16x64x64
  inb_S1x16x9x64x64_S1x16x1x64x64_0_0_0_0_0 : ∀ a, (![0, 0, 0, 0, 0] : Fin 5 → Nat) a + S1x16x1x64x64.size a ≤ S1x16x9x64x64.size a
  h_S1x16x1x64x64 : 0 < S1x16x1x64x64.numel
  shapeCasts_S1x16x1x64x64_S16x64x64 : S1x16x1x64x64.ShapeCasts S16x64x64
  inb_S1x1x16x66x66_S1x1x16x64x64_0_0_0_0_1 : ∀ a, (![0, 0, 0, 0, 1] : Fin 5 → Nat) a + S1x1x16x64x64.size a ≤ S1x1x16x66x66.size a
  inb_S1x16x9x64x64_S1x16x1x64x64_0_0_1_0_0 : ∀ a, (![0, 0, 1, 0, 0] : Fin 5 → Nat) a + S1x16x1x64x64.size a ≤ S1x16x9x64x64.size a
  inb_S1x1x16x66x66_S1x1x16x64x64_0_0_0_0_2 : ∀ a, (![0, 0, 0, 0, 2] : Fin 5 → Nat) a + S1x1x16x64x64.size a ≤ S1x1x16x66x66.size a
  inb_S1x16x9x64x64_S1x16x1x64x64_0_0_2_0_0 : ∀ a, (![0, 0, 2, 0, 0] : Fin 5 → Nat) a + S1x16x1x64x64.size a ≤ S1x16x9x64x64.size a
  inb_S1x1x16x66x66_S1x1x16x64x64_0_0_0_1_0 : ∀ a, (![0, 0, 0, 1, 0] : Fin 5 → Nat) a + S1x1x16x64x64.size a ≤ S1x1x16x66x66.size a
  inb_S1x16x9x64x64_S1x16x1x64x64_0_0_3_0_0 : ∀ a, (![0, 0, 3, 0, 0] : Fin 5 → Nat) a + S1x16x1x64x64.size a ≤ S1x16x9x64x64.size a
  inb_S1x1x16x66x66_S1x1x16x64x64_0_0_0_1_1 : ∀ a, (![0, 0, 0, 1, 1] : Fin 5 → Nat) a + S1x1x16x64x64.size a ≤ S1x1x16x66x66.size a
  inb_S1x16x9x64x64_S1x16x1x64x64_0_0_4_0_0 : ∀ a, (![0, 0, 4, 0, 0] : Fin 5 → Nat) a + S1x16x1x64x64.size a ≤ S1x16x9x64x64.size a
  inb_S1x1x16x66x66_S1x1x16x64x64_0_0_0_1_2 : ∀ a, (![0, 0, 0, 1, 2] : Fin 5 → Nat) a + S1x1x16x64x64.size a ≤ S1x1x16x66x66.size a
  inb_S1x16x9x64x64_S1x16x1x64x64_0_0_5_0_0 : ∀ a, (![0, 0, 5, 0, 0] : Fin 5 → Nat) a + S1x16x1x64x64.size a ≤ S1x16x9x64x64.size a
  inb_S1x1x16x66x66_S1x1x16x64x64_0_0_0_2_0 : ∀ a, (![0, 0, 0, 2, 0] : Fin 5 → Nat) a + S1x1x16x64x64.size a ≤ S1x1x16x66x66.size a
  inb_S1x16x9x64x64_S1x16x1x64x64_0_0_6_0_0 : ∀ a, (![0, 0, 6, 0, 0] : Fin 5 → Nat) a + S1x16x1x64x64.size a ≤ S1x16x9x64x64.size a
  inb_S1x1x16x66x66_S1x1x16x64x64_0_0_0_2_1 : ∀ a, (![0, 0, 0, 2, 1] : Fin 5 → Nat) a + S1x1x16x64x64.size a ≤ S1x1x16x66x66.size a
  inb_S1x16x9x64x64_S1x16x1x64x64_0_0_7_0_0 : ∀ a, (![0, 0, 7, 0, 0] : Fin 5 → Nat) a + S1x16x1x64x64.size a ≤ S1x16x9x64x64.size a
  inb_S1x1x16x66x66_S1x1x16x64x64_0_0_0_2_2 : ∀ a, (![0, 0, 0, 2, 2] : Fin 5 → Nat) a + S1x1x16x64x64.size a ≤ S1x1x16x66x66.size a
  inb_S1x16x9x64x64_S1x16x1x64x64_0_0_8_0_0 : ∀ a, (![0, 0, 8, 0, 0] : Fin 5 → Nat) a + S1x16x1x64x64.size a ≤ S1x16x9x64x64.size a
  inb_S1x1x16x64x64_S1x1x16x64x64_0_0_0_0_0 : ∀ a, (![0, 0, 0, 0, 0] : Fin 5 → Nat) a + S1x1x16x64x64.size a ≤ S1x1x16x64x64.size a
  shapeCasts_S16x64x64_S1x1x16x64x64 : S16x64x64.ShapeCasts S1x1x16x64x64
  shapeCasts_S8x16x16x64x64_S8x256x64x64 : S8x16x16x64x64.ShapeCasts S8x256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x16x66x66.size a ≤ S8x16x16x66x66.size a
  hwx0_0 : ∀ i : grid0.Coords, EltTy.bits .f32 = 32 ∨ (Rect.block (s := S8x16x16x66x66) S1x1x16x66x66.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x9x64x64.size a ≤ S8x16x9x64x64.size a
  hwx0_1 : ∀ i : grid0.Coords, EltTy.bits .f32 = 32 ∨ (Rect.block (s := S8x16x9x64x64) S1x16x9x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x16x64x64.size a ≤ S8x16x16x64x64.size a
  hwx0_2 : ∀ i : grid0.Coords, EltTy.bits .f32 = 32 ∨ (Rect.block (s := S8x16x16x64x64) S1x1x16x64x64.size (cc0_transform_2 i) (hinb0_2 i)).WholeWords (EltTy.packing .f32)

variable [Facts₀]

abbrev win0_0 : Pipeline.Window sig grid0 :=
  Pipeline.Window.ofSpec (Memref.whole main_v1) S1x1x16x66x66.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x16x9x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x16x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x64x64 : Shape := ⟨4, ![8, 256, 64, 64]⟩
abbrev S8x16x9x4096 : Shape := ⟨4, ![8, 16, 9, 4096]⟩
abbrev S_ : Shape := ⟨0, ![]⟩
abbrev S8x256x66x66 : Shape := ⟨4, ![8, 256, 66, 66]⟩
abbrev S8x1x16x9x64x64 : Shape := ⟨6, ![8, 1, 16, 9, 64, 64]⟩
abbrev S8x16x16x64x64 : Shape := ⟨5, ![8, 16, 16, 64, 64]⟩
abbrev S8x1x16x1x64x64 : Shape := ⟨6, ![8, 1, 16, 1, 64, 64]⟩
abbrev S8x1x16x64x64 : Shape := ⟨5, ![8, 1, 16, 64, 64]⟩

abbrev nBuf : Space → Nat
  | .hbm => 72
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S8x16x9x4096, .f32⟩
  | .hbm, ⟨2, _⟩ => ⟨S_, .i32⟩
  | .hbm, ⟨3, _⟩ => ⟨S_, .f32⟩
  | .hbm, ⟨4, _⟩ => ⟨S8x256x66x66, .f32⟩
  | .hbm, ⟨5, _⟩ => ⟨S8x1x16x9x64x64, .f32⟩
  | .hbm, ⟨6, _⟩ => ⟨S_, .f32⟩
  | .hbm, ⟨7, _⟩ => ⟨S8x16x16x64x64, .f32⟩
  | .hbm, ⟨8, _⟩ => ⟨S8x256x64x64, .f32⟩
  | .hbm, ⟨9, _⟩ => ⟨S8x16x16x64x64, .f32⟩
  | .hbm, ⟨10, _⟩ => ⟨S8x1x16x1x64x64, .f32⟩
  | .hbm, ⟨11, _⟩ => ⟨S8x1x16x64x64, .f32⟩
  | .hbm, ⟨12, _⟩ => ⟨S8x16x16x64x64, .f32⟩
  | .hbm, ⟨13, _⟩ => ⟨S8x16x16x64x64, .f32⟩
  | .hbm, ⟨14, _⟩ => ⟨S8x16x16x64x64, .f32⟩
  | .hbm, ⟨15, _⟩ => ⟨S8x256x64x64, .f32⟩
  | .hbm, ⟨16, _⟩ => ⟨S8x16x16x64x64, .f32⟩
  | .hbm, ⟨17, _⟩ => ⟨S8x1x16x1x64x64, .f32⟩
  | .hbm, ⟨18, _⟩ => ⟨S8x1x16x64x64, .f32⟩
  | .hbm, ⟨19, _⟩ => ⟨S8x16x16x64x64, .f32⟩
  | .hbm, ⟨20, _⟩ => ⟨S8x16x16x64x64, .f32⟩
  | .hbm, ⟨21, _⟩ => ⟨S8x16x16x64x64, .f32⟩
  | .hbm, ⟨22, _⟩ => ⟨S8x256x64x64, .f32⟩
  | .hbm, ⟨23, _⟩ => ⟨S8x16x16x64x64, .f32⟩
  | .hbm, ⟨24, _⟩ => ⟨S8x1x16x1x64x64, .f32⟩
  | .hbm, ⟨25, _⟩ => ⟨S8x1x16x64x64, .f32⟩
  | .hbm, ⟨26, _⟩ => ⟨S8x16x16x64x64, .f32⟩
  | .hbm, ⟨27, _⟩ => ⟨S8x16x16x64x64, .f32⟩
  | .hbm, ⟨28, _⟩ => ⟨S8x16x16x64x64, .f32⟩
  | .hbm, ⟨29, _⟩ => ⟨S8x256x64x64, .f32⟩
  | .hbm, ⟨30, _⟩ => ⟨S8x16x16x64x64, .f32⟩
  | .hbm, ⟨31, _⟩ => ⟨S8x1x16x1x64x64, .f32⟩
  | .hbm, ⟨32, _⟩ => ⟨S8x1x16x64x64, .f32⟩
  | .hbm, ⟨33, _⟩ => ⟨S8x16x16x64x64, .f32⟩
  | .hbm, ⟨34, _⟩ => ⟨S8x16x16x64x64, .f32⟩
  | .hbm, ⟨35, _⟩ => ⟨S8x16x16x64x64, .f32⟩
  | .hbm, ⟨36, _⟩ => ⟨S8x256x64x64, .f32⟩
  | .hbm, ⟨37, _⟩ => ⟨S8x16x16x64x64, .f32⟩
  | .hbm, ⟨38, _⟩ => ⟨S8x1x16x1x64x64, .f32⟩
  | .hbm, ⟨39, _⟩ => ⟨S8x1x16x64x64, .f32⟩
  | .hbm, ⟨40, _⟩ => ⟨S8x16x16x64x64, .f32⟩
  | .hbm, ⟨41, _⟩ => ⟨S8x16x16x64x64, .f32⟩
  | .hbm, ⟨42, _⟩ => ⟨S8x16x16x64x64, .f32⟩
  | .hbm, ⟨43, _⟩ => ⟨S8x256x64x64, .f32⟩
  | .hbm, ⟨44, _⟩ => ⟨S8x16x16x64x64, .f32⟩
  | .hbm, ⟨45, _⟩ => ⟨S8x1x16x1x64x64, .f32⟩
  | .hbm, ⟨46, _⟩ => ⟨S8x1x16x64x64, .f32⟩
  | .hbm, ⟨47, _⟩ => ⟨S8x16x16x64x64, .f32⟩
  | .hbm, ⟨48, _⟩ => ⟨S8x16x16x64x64, .f32⟩
  | .hbm, ⟨49, _⟩ => ⟨S8x16x16x64x64, .f32⟩
  | .hbm, ⟨50, _⟩ => ⟨S8x256x64x64, .f32⟩
  | .hbm, ⟨51, _⟩ => ⟨S8x16x16x64x64, .f32⟩
  | .hbm, ⟨52, _⟩ => ⟨S8x1x16x1x64x64, .f32⟩
  | .hbm, ⟨53, _⟩ => ⟨S8x1x16x64x64, .f32⟩
  | .hbm, ⟨54, _⟩ => ⟨S8x16x16x64x64, .f32⟩
  | .hbm, ⟨55, _⟩ => ⟨S8x16x16x64x64, .f32⟩
  | .hbm, ⟨56, _⟩ => ⟨S8x16x16x64x64, .f32⟩
  | .hbm, ⟨57, _⟩ => ⟨S8x256x64x64, .f32⟩
  | .hbm, ⟨58, _⟩ => ⟨S8x16x16x64x64, .f32⟩
  | .hbm, ⟨59, _⟩ => ⟨S8x1x16x1x64x64, .f32⟩
  | .hbm, ⟨60, _⟩ => ⟨S8x1x16x64x64, .f32⟩
  | .hbm, ⟨61, _⟩ => ⟨S8x16x16x64x64, .f32⟩
  | .hbm, ⟨62, _⟩ => ⟨S8x16x16x64x64, .f32⟩
  | .hbm, ⟨63, _⟩ => ⟨S8x16x16x64x64, .f32⟩
  | .hbm, ⟨64, _⟩ => ⟨S8x256x64x64, .f32⟩
  | .hbm, ⟨65, _⟩ => ⟨S8x16x16x64x64, .f32⟩
  | .hbm, ⟨66, _⟩ => ⟨S8x1x16x1x64x64, .f32⟩
  | .hbm, ⟨67, _⟩ => ⟨S8x1x16x64x64, .f32⟩
  | .hbm, ⟨68, _⟩ => ⟨S8x16x16x64x64, .f32⟩
  | .hbm, ⟨69, _⟩ => ⟨S8x16x16x64x64, .f32⟩
  | .hbm, ⟨70, _⟩ => ⟨S8x16x16x64x64, .f32⟩
  | .hbm, ⟨71, _⟩ => ⟨S8x256x64x64, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩

abbrev nD : Nat := 1
abbrev τ : Topo := Topo.v7x

variable {F : FTy → Type} [FloatOps F]

class Facts₀ : Prop where
  pads_S8x256x64x64_S8x256x66x66_000_000_110_110 : S8x256x64x64.Pads (![0, 0, 1, 1] : Fin 4 → Nat) ![0, 0, 1, 1] ![0, 0, 0, 0] S8x256x66x66
  h_S_ : 0 < S_.numel
  shapeCasts_S8x16x9x4096_S8x1x16x9x64x64 : S8x16x9x4096.ShapeCasts S8x1x16x9x64x64
  bcast_S_S8x16x16x64x64 : S_.BroadcastsInDim S8x16x16x64x64 (![] : Fin 0 → Fin S8x16x16x64x64.rank)
  slices_S8x256x66x66_S8x256x64x64_0_0_0_0 : S8x256x66x66.Slices ![0, 0, 0, 0] S8x256x64x64
  shapeCasts_S8x256x64x64_S8x16x16x64x64 : S8x256x64x64.ShapeCasts S8x16x16x64x64
  slices_S8x1x16x9x64x64_S8x1x16x1x64x64_0_0_0_0_0_0 : S8x1x16x9x64x64.Slices ![0, 0, 0, 0, 0, 0] S8x1x16x1x64x64
  shapeCasts_S8x1x16x1x64x64_S8x1x16x64x64 : S8x1x16x1x64x64.ShapeCasts S8x1x16x64x64
  bcast_S8x1x16x64x64_S8x16x16x64x64_0_1_2_3_4 : S8x1x16x64x64.BroadcastsInDim S8x16x16x64x64 (![0, 1, 2, 3, 4] : Fin 5 → Fin S8x16x16x64x64.rank)
  slices_S8x256x66x66_S8x256x64x64_0_0_0_1 : S8x256x66x66.Slices ![0, 0, 0, 1] S8x256x64x64
  slices_S8x1x16x9x64x64_S8x1x16x1x64x64_0_0_0_1_0_0 : S8x1x16x9x64x64.Slices ![0, 0, 0, 1, 0, 0] S8x1x16x1x64x64
  slices_S8x256x66x66_S8x256x64x64_0_0_0_2 : S8x256x66x66.Slices ![0, 0, 0, 2] S8x256x64x64
  slices_S8x1x16x9x64x64_S8x1x16x1x64x64_0_0_0_2_0_0 : S8x1x16x9x64x64.Slices ![0, 0, 0, 2, 0, 0] S8x1x16x1x64x64
  slices_S8x256x66x66_S8x256x64x64_0_0_1_0 : S8x256x66x66.Slices ![0, 0, 1, 0] S8x256x64x64
  slices_S8x1x16x9x64x64_S8x1x16x1x64x64_0_0_0_3_0_0 : S8x1x16x9x64x64.Slices ![0, 0, 0, 3, 0, 0] S8x1x16x1x64x64
  slices_S8x256x66x66_S8x256x64x64_0_0_1_1 : S8x256x66x66.Slices ![0, 0, 1, 1] S8x256x64x64
  slices_S8x1x16x9x64x64_S8x1x16x1x64x64_0_0_0_4_0_0 : S8x1x16x9x64x64.Slices ![0, 0, 0, 4, 0, 0] S8x1x16x1x64x64
  slices_S8x256x66x66_S8x256x64x64_0_0_1_2 : S8x256x66x66.Slices ![0, 0, 1, 2] S8x256x64x64
  slices_S8x1x16x9x64x64_S8x1x16x1x64x64_0_0_0_5_0_0 : S8x1x16x9x64x64.Slices ![0, 0, 0, 5, 0, 0] S8x1x16x1x64x64
  slices_S8x256x66x66_S8x256x64x64_0_0_2_0 : S8x256x66x66.Slices ![0, 0, 2, 0] S8x256x64x64
  slices_S8x1x16x9x64x64_S8x1x16x1x64x64_0_0_0_6_0_0 : S8x1x16x9x64x64.Slices ![0, 0, 0, 6, 0, 0] S8x1x16x1x64x64
  slices_S8x256x66x66_S8x256x64x64_0_0_2_1 : S8x256x66x66.Slices ![0, 0, 2, 1] S8x256x64x64
  slices_S8x1x16x9x64x64_S8x1x16x1x64x64_0_0_0_7_0_0 : S8x1x16x9x64x64.Slices ![0, 0, 0, 7, 0, 0] S8x1x16x1x64x64
  slices_S8x256x66x66_S8x256x64x64_0_0_2_2 : S8x256x66x66.Slices ![0, 0, 2, 2] S8x256x64x64
  slices_S8x1x16x9x64x64_S8x1x16x1x64x64_0_0_0_8_0_0 : S8x1x16x9x64x64.Slices ![0, 0, 0, 8, 0, 0] S8x1x16x1x64x64
  shapeCasts_S8x16x16x64x64_S8x256x64x64 : S8x16x16x64x64.ShapeCasts S8x256x64x64

variable [Facts₀]

class Facts : Prop extends Facts₀ where

variable [Facts]
-- ==== Proof.TapSum.lean ====
/-
  The function both programs compute, stated once over the extended reals.

  An image of 256 channels per sample is padded by one zero pixel on every side of its two spatial axes
  (64 × 64 becomes 66 × 66). Channel `ch = g * 16 + c` belongs to group `g` and uses weight channel `c`: the
  sixteen groups share the sixteen weight channels. The weights give every output pixel its own 3 × 3 stencil:
  tap `k = 3 * di + dj` of weight channel `c` at pixel `(h, w)` sits at column `h * 64 + w` of row `k`.
  The output at `(b, g, c, h, w)` is the sum over the nine taps, taken in the order k = 0, 1, …, 8 and
  started from zero, of

      padded (b, g * 16 + c, di + h, dj + w)  *  weight (b, c, k, h * 64 + w).

  The order and the grouping of the nine additions are part of the statement: the extended reals are not a
  ring (a product with an infinity does not distribute), so the sum is kept exactly as both programs form it
  and no law of arithmetic is used anywhere.
-/
import Idealize.ShloMosaic.PureOps.Ideal
import Idealize.ShloMosaic.Lib.ValueIdx

noncomputable section

namespace Cert.TapSum

open Idealize.ShloMosaic Idealize.ShloMosaic.ValueIdx

/-- Nine products added up from zero, one after the other: `p di dj` is the image value under tap
    `(di, dj)` of the stencil, `q k` the weight of tap `k = 3 * di + dj`. -/
def nine (p : Fin 3 → Fin 3 → EReal) (q : Fin 9 → EReal) : EReal :=
  ((((((((0 + p 0 0 * q 0) + p 0 1 * q 1) + p 0 2 * q 2) + p 1 0 * q 3) + p 1 1 * q 4) + p 1 2 * q 5)
    + p 2 0 * q 6) + p 2 1 * q 7) + p 2 2 * q 8

/-- A pixel coordinate moved `d ≤ 2` steps into the padded axis. -/
def shift (d : Fin 3) (h : Fin 64) : Fin 66 := ⟨d.val + h.val, by have := d.isLt; have := h.isLt; omega⟩

/-- The channel of group `g` and weight channel `c`. -/
def chan (g c : Fin 16) : Fin 256 := ⟨g.val * 16 + c.val, by have := g.isLt; have := c.isLt; omega⟩

/-- The column of pixel `(h, w)` in a weight row. -/
def pix (h w : Fin 64) : Fin 4096 := ⟨h.val * 64 + w.val, by have := h.isLt; have := w.isLt; omega⟩

/-- The output entry `(b, g, c, h, w)` from the padded image and the weights. -/
def entry (Xp : (⟨4, ![8, 256, 66, 66]⟩ : Shape).Idx → EReal) (Wt : (⟨4, ![8, 16, 9, 4096]⟩ : Shape).Idx → EReal)
    (b : Fin 8) (g c : Fin 16) (h w : Fin 64) : EReal :=
  nine (fun di dj => Xp (ix4 b (chan g c) (shift di h) (shift dj w))) (fun k => Wt (ix4 b c k (pix h w)))

/-- The whole output, laid out as [8, 16, 16, 64, 64]. -/
def out (Xp : (⟨4, ![8, 256, 66, 66]⟩ : Shape).Idx → EReal) (Wt : (⟨4, ![8, 16, 9, 4096]⟩ : Shape).Idx → EReal) :
    (⟨5, ![8, 16, 16, 64, 64]⟩ : Shape).Idx → EReal :=
  fun i => entry Xp Wt (i 0) (i 1) (i 2) (i 3) (i 4)

theorem out_ix5 (Xp : (⟨4, ![8, 256, 66, 66]⟩ : Shape).Idx → EReal) (Wt : (⟨4, ![8, 16, 9, 4096]⟩ : Shape).Idx → EReal)
    (b : Fin 8) (g c : Fin 16) (h w : Fin 64) : out Xp Wt (ix5 b g c h w) = entry Xp Wt b g c h w := rfl

end Cert.TapSum

end
-- ==== Proof.BlockEntry.lean ====
/-
  What one grid step leaves in its output block, entry by entry.

  A grid step holds one padded 16-channel image block [1, 1, 16, 66, 66] and the nine weight pictures of its
  sample [1, 16, 9, 64, 64]. It reads nine 64 × 64 windows of the image block — window `(di, dj)` starts at row
  `di` and column `dj` — and the nine weight pictures, multiplies them entry by entry and adds the products to
  a zero block, tap 0 first. So entry `(c, h, w)` of the block it stores is the nine-term sum of
  `image (c, di + h, dj + w) * weight (c, k, h, w)`, `k = 3 * di + dj`.
-/
import proofs.«155428_j42322607734845_1_alg».proof.Proof.Gen.KernelIdeal.Frame
import proofs.«155428_j42322607734845_1_alg».proof.Proof.TapSum
import Idealize.ShloMosaic.Lib.Pipeline.Value
import Idealize.ShloMosaic.Lib.ValueIdx
import Idealize.ShloMosaic.PureOps.Ideal.Laws

noncomputable section

namespace Cert.KernelIdeal.BlockEntry

open Cert.KernelIdeal Cert.KernelIdeal.Gen Idealize.ShloMosaic Idealize.ShloMosaic.ValueIdx Cert.TapSum

theorem zero_offsets : (![0, 0, 0, 0, 0] : Fin 5 → Nat) = fun _ => 0 := funext fun a => by fin_cases a <;> rfl

/-- A 64 × 64 window of the image block at offset `(di, dj)`, its two unit axes dropped: entry `(c, h, w)` is
    the block's entry `(0, 0, c, di + h, dj + w)`. -/
theorem image_window (x0 : Vec Ideal S1x1x16x66x66 .f32) (di dj : Nat)
    (inb : ∀ a, (![0, 0, 0, di, dj] : Fin 5 → Nat) a + S1x1x16x64x64.size a ≤ S1x1x16x66x66.size a)
    (hc : S1x1x16x64x64.ShapeCasts S16x64x64) (c : Fin 16) (h w : Fin 64) :
    shapeCast S16x64x64 (View.ld x0 (Rect.unit (s := S1x1x16x66x66) ![0, 0, 0, di, dj] S1x1x16x64x64.size inb)) hc (ix3 c h w)
      = x0 (ix5 (0 : Fin 1) (0 : Fin 1) c
          (⟨di + h.val, by have h3 : di + 64 ≤ 66 := inb 3; have := h.isLt; omega⟩ : Fin 66)
          (⟨dj + w.val, by have h4 : dj + 64 ≤ 66 := inb 4; have := w.isLt; omega⟩ : Fin 66)) := by
  have := c.isLt; have := h.isLt; have := w.isLt
  refine (shapeCast_apply _ hc _ (ix5 (0 : Fin 1) (0 : Fin 1) c h w) (by
    rewrite [Shape.rowMajor_val_five, Shape.rowMajor_val_three]
    show (((0 * 1 + 0) * 16 + c.val) * 64 + h.val) * 64 + w.val = (c.val * 64 + h.val) * 64 + w.val
    omega)).trans ?_
  refine congrArg x0 (funext fun a => Fin.ext ?_)
  match a with
  | ⟨0, _⟩ => show 0 + 1 * 0 = 0; rfl
  | ⟨1, _⟩ => show 0 + 1 * 0 = 0; rfl
  | ⟨2, _⟩ => show 0 + 1 * c.val = c.val; omega
  | ⟨3, _⟩ => show di + 1 * h.val = di + h.val; omega
  | ⟨4, _⟩ => show dj + 1 * w.val = dj + w.val; omega

/-- Weight picture `k` of the weight block, its two unit axes dropped: entry `(c, h, w)` is the block's entry
    `(0, c, k, h, w)`. -/
theorem weight_picture (x1 : Vec Ideal S1x16x9x64x64 .f32) (k : Nat)
    (inb : ∀ a, (![0, 0, k, 0, 0] : Fin 5 → Nat) a + S1x16x1x64x64.size a ≤ S1x16x9x64x64.size a)
    (hc : S1x16x1x64x64.ShapeCasts S16x64x64) (c : Fin 16) (h w : Fin 64) :
    shapeCast S16x64x64 (View.ld x1 (Rect.unit (s := S1x16x9x64x64) ![0, 0, k, 0, 0] S1x16x1x64x64.size inb)) hc (ix3 c h w)
      = x1 (ix5 (0 : Fin 1) c (⟨k, by have h2 : k + 1 ≤ 9 := inb 2; omega⟩ : Fin 9) h w) := by
  have := c.isLt; have := h.isLt; have := w.isLt
  refine (shapeCast_apply _ hc _ (ix5 (0 : Fin 1) c (0 : Fin 1) h w) (by
    rewrite [Shape.rowMajor_val_five, Shape.rowMajor_val_three]
    show (((0 * 16 + c.val) * 1 + 0) * 64 + h.val) * 64 + w.val = (c.val * 64 + h.val) * 64 + w.val
    omega)).trans ?_
  refine congrArg x1 (funext fun a => Fin.ext ?_)
  match a with
  | ⟨0, _⟩ => show 0 + 1 * 0 = 0; rfl
  | ⟨1, _⟩ => show 0 + 1 * c.val = c.val; omega
  | ⟨2, _⟩ => show k + 1 * 0 = k; omega
  | ⟨3, _⟩ => show 0 + 1 * h.val = h.val; omega
  | ⟨4, _⟩ => show 0 + 1 * w.val = w.val; omega

/-- THE STORED BLOCK, entry by entry: the nine-term sum over the image block's windows and the weight block's
    pictures. -/
theorem stored (x0 : Vec Ideal S1x1x16x66x66 .f32) (x1 : Vec Ideal S1x16x9x64x64 .f32) (c : Fin 16) (h w : Fin 64) :
    out0_2 x0 x1 (ix5 (0 : Fin 1) (0 : Fin 1) c h w)
      = nine (fun di dj => x0 (ix5 (0 : Fin 1) (0 : Fin 1) c (shift di h) (shift dj w)))
          (fun k => x1 (ix5 (0 : Fin 1) c k h w)) := by
  have := c.isLt; have := h.isLt; have := w.isLt
  unfold out0_2
  rw [View.canon_unit_zero zero_offsets]
  simp only [k0_pay1, k0_pay2, k0_pay3, k0_pay4]
  refine (shapeCast_apply _ _ _ (ix3 c h w) (by
    rewrite [Shape.rowMajor_val_five, Shape.rowMajor_val_three]
    show (c.val * 64 + h.val) * 64 + w.val = (((0 * 1 + 0) * 16 + c.val) * 64 + h.val) * 64 + w.val
    omega)).trans ?_
  simp only [addf_apply, mulf_apply, broadcast_apply]
  rw [image_window x0 0 0 _ _ c h w, image_window x0 0 1 _ _ c h w, image_window x0 0 2 _ _ c h w,
    image_window x0 1 0 _ _ c h w, image_window x0 1 1 _ _ c h w, image_window x0 1 2 _ _ c h w,
    image_window x0 2 0 _ _ c h w, image_window x0 2 1 _ _ c h w, image_window x0 2 2 _ _ c h w,
    weight_picture x1 0 _ _ c h w, weight_picture x1 1 _ _ c h w, weight_picture x1 2 _ _ c h w,
    weight_picture x1 3 _ _ c h w, weight_picture x1 4 _ _ c h w, weight_picture x1 5 _ _ c h w,
    weight_picture x1 6 _ _ c h w, weight_picture x1 7 _ _ c h w, weight_picture x1 8 _ _ c h w,
    Ideal.ofBits_def, Ideal.ofBits_zero_f32]
  rfl

end Cert.KernelIdeal.BlockEntry

end
-- ==== Proof.Layout.lean ====
/-
  Layout operations read at coordinates. Nothing here depends on what the entries are: every lemma holds for
  arrays over any type.

  * Padding commutes with splitting the channel axis: the [8, 256, 64, 64] image viewed as
    [8, 16, 16, 64, 64] (channel `g * 16 + c` becomes the pair `(g, c)`) and then padded on its two spatial
    axes reads, at `(b, g, c, hh, ww)`, what the image padded first reads at `(b, g * 16 + c, hh, ww)`.
  * A 64 × 64 window of the padded image at offset `(di, dj)`, viewed with the channel axis split, reads the
    padded image at `(b, g * 16 + c, di + h, dj + w)`.
  * Row `k` of the weights, viewed as a 64 × 64 picture and repeated over the sixteen groups, reads the weights
    at column `h * 64 + w`; and so does the [8, 16, 9, 64, 64] view of the weights at `(b, c, k, h, w)`.
-/
import Idealize.ShloMosaic.Lib.Pipeline.Value
import Idealize.ShloMosaic.Lib.KernelVsHost
import Idealize.ShloMosaic.Lib.ValueIdxRank6
import proofs.«155428_j42322607734845_1_alg».proof.Proof.TapSum

noncomputable section

namespace Cert.TapSum

open Idealize.ShloMosaic Idealize.ShloMosaic.ValueIdx

variable {α : Type}

/-- Splitting the channel axis and then padding the two spatial axes by one reads, at `(b, g, c, hh, ww)`, what
    padding first reads at channel `g * 16 + c`: inside the image both read the same pixel, on the border both
    read the padding value. -/
theorem pad_split (x : (⟨4, ![8, 256, 64, 64]⟩ : Shape).Idx → α) {u : Shape} (z : u.Idx → α) (hu : 0 < u.numel)
    (hc : (⟨4, ![8, 256, 64, 64]⟩ : Shape).ShapeCasts ⟨5, ![8, 16, 16, 64, 64]⟩)
    (h5 : (⟨5, ![8, 16, 16, 64, 64]⟩ : Shape).Pads ![0, 0, 0, 1, 1] ![0, 0, 0, 1, 1] ![0, 0, 0, 0, 0] ⟨5, ![8, 16, 16, 66, 66]⟩)
    (h4 : (⟨4, ![8, 256, 64, 64]⟩ : Shape).Pads ![0, 0, 1, 1] ![0, 0, 1, 1] ![0, 0, 0, 0] ⟨4, ![8, 256, 66, 66]⟩)
    (b : Fin 8) (g c : Fin 16) (hh ww : Fin 66) :
    pad ⟨5, ![8, 16, 16, 66, 66]⟩ ![0, 0, 0, 1, 1] ![0, 0, 0, 1, 1] ![0, 0, 0, 0, 0]
        (shapeCast ⟨5, ![8, 16, 16, 64, 64]⟩ x hc) z h5 hu (ix5 b g c hh ww)
      = pad ⟨4, ![8, 256, 66, 66]⟩ ![0, 0, 1, 1] ![0, 0, 1, 1] ![0, 0, 0, 0] x z h4 hu (ix4 b (chan g c) hh ww) := by
  have hb := b.isLt; have hg := g.isLt; have hcc := c.isLt; have hhl := hh.isLt; have hwl := ww.isLt
  by_cases hH : 1 ≤ hh.val ∧ hh.val ≤ 64
  · by_cases hW : 1 ≤ ww.val ∧ ww.val ≤ 64
    · -- inside the image on both axes
      rw [pad_apply_of_inside _ _ _ _ z h5 hu (ix5 b g c hh ww)
          (ix5 b g c (⟨hh.val - 1, by omega⟩ : Fin 64) (⟨ww.val - 1, by omega⟩ : Fin 64)) (fun a => match a with
            | ⟨0, _⟩ => by show b.val = 0 + b.val * (0 + 1); omega
            | ⟨1, _⟩ => by show g.val = 0 + g.val * (0 + 1); omega
            | ⟨2, _⟩ => by show c.val = 0 + c.val * (0 + 1); omega
            | ⟨3, _⟩ => by show hh.val = 1 + (hh.val - 1) * (0 + 1); omega
            | ⟨4, _⟩ => by show ww.val = 1 + (ww.val - 1) * (0 + 1); omega),
        pad_apply_of_inside _ _ _ _ z h4 hu (ix4 b (chan g c) hh ww)
          (ix4 b (chan g c) (⟨hh.val - 1, by omega⟩ : Fin 64) (⟨ww.val - 1, by omega⟩ : Fin 64)) (fun a => match a with
            | ⟨0, _⟩ => by show b.val = 0 + b.val * (0 + 1); omega
            | ⟨1, _⟩ => by show g.val * 16 + c.val = 0 + (g.val * 16 + c.val) * (0 + 1); omega
            | ⟨2, _⟩ => by show hh.val = 1 + (hh.val - 1) * (0 + 1); omega
            | ⟨3, _⟩ => by show ww.val = 1 + (ww.val - 1) * (0 + 1); omega)]
      exact shapeCast_apply x hc _ _ (by
        rewrite [Shape.rowMajor_val_four, Shape.rowMajor_val_five]
        show ((b.val * 256 + (g.val * 16 + c.val)) * 64 + (hh.val - 1)) * 64 + (ww.val - 1)
          = (((b.val * 16 + g.val) * 16 + c.val) * 64 + (hh.val - 1)) * 64 + (ww.val - 1)
        omega)
    · -- on the border of the last axis
      rw [pad_apply_of_not_inside _ _ _ _ z h5 hu (ix5 b g c hh ww) ⟨4, by decide⟩ (by
            show ¬(1 ≤ ww.val ∧ (ww.val - 1) % (0 + 1) = 0 ∧ (ww.val - 1) / (0 + 1) < 64); omega),
        pad_apply_of_not_inside _ _ _ _ z h4 hu (ix4 b (chan g c) hh ww) ⟨3, by decide⟩ (by
            show ¬(1 ≤ ww.val ∧ (ww.val - 1) % (0 + 1) = 0 ∧ (ww.val - 1) / (0 + 1) < 64); omega)]
  · -- on the border of the row axis
    rw [pad_apply_of_not_inside _ _ _ _ z h5 hu (ix5 b g c hh ww) ⟨3, by decide⟩ (by
          show ¬(1 ≤ hh.val ∧ (hh.val - 1) % (0 + 1) = 0 ∧ (hh.val - 1) / (0 + 1) < 64); omega),
      pad_apply_of_not_inside _ _ _ _ z h4 hu (ix4 b (chan g c) hh ww) ⟨2, by decide⟩ (by
          show ¬(1 ≤ hh.val ∧ (hh.val - 1) % (0 + 1) = 0 ∧ (hh.val - 1) / (0 + 1) < 64); omega)]

/-- The weights viewed as [8, 16, 9, 64, 64]: entry `(b, c, k, h, w)` is column `h * 64 + w` of row `k`. -/
theorem weight_view (wt : (⟨4, ![8, 16, 9, 4096]⟩ : Shape).Idx → α)
    (hc : (⟨4, ![8, 16, 9, 4096]⟩ : Shape).ShapeCasts ⟨5, ![8, 16, 9, 64, 64]⟩)
    (b : Fin 8) (c : Fin 16) (k : Fin 9) (h w : Fin 64) :
    shapeCast ⟨5, ![8, 16, 9, 64, 64]⟩ wt hc (ix5 b c k h w) = wt (ix4 b c k (pix h w)) :=
  shapeCast_apply wt hc _ _ (by
    have := b.isLt; have := c.isLt; have := k.isLt; have := h.isLt; have := w.isLt
    rewrite [Shape.rowMajor_val_four, Shape.rowMajor_val_five]
    show ((b.val * 16 + c.val) * 9 + k.val) * 4096 + (h.val * 64 + w.val)
      = (((b.val * 16 + c.val) * 9 + k.val) * 64 + h.val) * 64 + w.val
    omega)

/-- A 64 × 64 window of the padded image at offset `(di, dj)`, its channel axis split into (group, weight
    channel): entry `(b, g, c, h, w)` is the padded image at `(b, g * 16 + c, di + h, dj + w)`. -/
theorem window_view (Xp : (⟨4, ![8, 256, 66, 66]⟩ : Shape).Idx → α) (di dj : Nat)
    (hs : (⟨4, ![8, 256, 66, 66]⟩ : Shape).Slices ![0, 0, di, dj] ⟨4, ![8, 256, 64, 64]⟩)
    (hc : (⟨4, ![8, 256, 64, 64]⟩ : Shape).ShapeCasts ⟨5, ![8, 16, 16, 64, 64]⟩)
    (b : Fin 8) (g c : Fin 16) (h w : Fin 64) :
    shapeCast ⟨5, ![8, 16, 16, 64, 64]⟩ (extractStridedSlice ⟨4, ![8, 256, 64, 64]⟩ ![0, 0, di, dj] Xp hs) hc (ix5 b g c h w)
      = Xp (ix4 b (chan g c)
          (⟨di + h.val, by have h2 : di + 64 ≤ 66 := hs.2 2; have := h.isLt; omega⟩ : Fin 66)
          (⟨dj + w.val, by have h3 : dj + 64 ≤ 66 := hs.2 3; have := w.isLt; omega⟩ : Fin 66)) := by
  have := b.isLt; have := g.isLt; have := c.isLt; have := h.isLt; have := w.isLt
  refine (shapeCast_apply _ hc _ (ix4 b (chan g c) h w) (by
    rewrite [Shape.rowMajor_val_four, Shape.rowMajor_val_five]
    show ((b.val * 256 + (g.val * 16 + c.val)) * 64 + h.val) * 64 + w.val
      = (((b.val * 16 + g.val) * 16 + c.val) * 64 + h.val) * 64 + w.val
    omega)).trans ?_
  exact extractStridedSlice_apply _ Xp hs _ _ (fun a => match a with
    | ⟨0, _⟩ => by show b.val = 0 + b.val; omega
    | ⟨1, _⟩ => by show g.val * 16 + c.val = 0 + (g.val * 16 + c.val); omega
    | ⟨2, _⟩ => by show di + h.val = di + h.val; rfl
    | ⟨3, _⟩ => by show dj + w.val = dj + w.val; rfl)

/-- Row `k` of the weights cut out of their [8, 1, 16, 9, 64, 64] view, its unit axis dropped and the result
    repeated over the sixteen groups: entry `(b, g, c, h, w)` is the weight `(b, c, k, h * 64 + w)`, whatever
    the group. -/
theorem tap_view (wt : (⟨4, ![8, 16, 9, 4096]⟩ : Shape).Idx → α) (k : Nat)
    (h1 : (⟨4, ![8, 16, 9, 4096]⟩ : Shape).ShapeCasts ⟨6, ![8, 1, 16, 9, 64, 64]⟩)
    (hs : (⟨6, ![8, 1, 16, 9, 64, 64]⟩ : Shape).Slices ![0, 0, 0, k, 0, 0] ⟨6, ![8, 1, 16, 1, 64, 64]⟩)
    (h2 : (⟨6, ![8, 1, 16, 1, 64, 64]⟩ : Shape).ShapeCasts ⟨5, ![8, 1, 16, 64, 64]⟩)
    (hb : (⟨5, ![8, 1, 16, 64, 64]⟩ : Shape).BroadcastsInDim ⟨5, ![8, 16, 16, 64, 64]⟩ ![0, 1, 2, 3, 4])
    (b : Fin 8) (g c : Fin 16) (h w : Fin 64) :
    broadcastInDim ⟨5, ![8, 16, 16, 64, 64]⟩ ![0, 1, 2, 3, 4] hb
        (shapeCast ⟨5, ![8, 1, 16, 64, 64]⟩
          (extractStridedSlice ⟨6, ![8, 1, 16, 1, 64, 64]⟩ ![0, 0, 0, k, 0, 0]
            (shapeCast ⟨6, ![8, 1, 16, 9, 64, 64]⟩ wt h1) hs) h2) (ix5 b g c h w)
      = wt (ix4 b c (⟨k, by have h3 : k + 1 ≤ 9 := hs.2 3; omega⟩ : Fin 9) (pix h w)) := by
  have := b.isLt; have := g.isLt; have := c.isLt; have := h.isLt; have := w.isLt
  have hk : k + 1 ≤ 9 := hs.2 3
  refine (broadcastInDim_apply _ hb _ _ (ix5 b (0 : Fin 1) c h w) (fun a => match a with
    | ⟨0, _⟩ => by show b.val = if (8 : Nat) = 1 then 0 else b.val; rw [if_neg (by decide)]
    | ⟨1, _⟩ => by show 0 = if (1 : Nat) = 1 then 0 else g.val; rw [if_pos rfl]
    | ⟨2, _⟩ => by show c.val = if (16 : Nat) = 1 then 0 else c.val; rw [if_neg (by decide)]
    | ⟨3, _⟩ => by show h.val = if (64 : Nat) = 1 then 0 else h.val; rw [if_neg (by decide)]
    | ⟨4, _⟩ => by show w.val = if (64 : Nat) = 1 then 0 else w.val; rw [if_neg (by decide)])).trans ?_
  refine (shapeCast_apply _ h2 _ (ix6 b (0 : Fin 1) c (0 : Fin 1) h w) (by
    rewrite [Shape.rowMajor_val_six, Shape.rowMajor_val_five]
    show ((((b.val * 1 + 0) * 16 + c.val) * 1 + 0) * 64 + h.val) * 64 + w.val
      = (((b.val * 1 + 0) * 16 + c.val) * 64 + h.val) * 64 + w.val
    omega)).trans ?_
  refine (extractStridedSlice_apply _ _ hs _ (ix6 b (0 : Fin 1) c (⟨k, by omega⟩ : Fin 9) h w) (fun a => match a with
    | ⟨0, _⟩ => by show b.val = 0 + b.val; omega
    | ⟨1, _⟩ => by show 0 = 0 + 0; rfl
    | ⟨2, _⟩ => by show c.val = 0 + c.val; omega
    | ⟨3, _⟩ => by show k = k + 0; rfl
    | ⟨4, _⟩ => by show h.val = 0 + h.val; omega
    | ⟨5, _⟩ => by show w.val = 0 + w.val; omega)).trans ?_
  exact shapeCast_apply wt h1 _ _ (by
    rewrite [Shape.rowMajor_val_four, Shape.rowMajor_val_six]
    show ((b.val * 16 + c.val) * 9 + k) * 4096 + (h.val * 64 + w.val)
      = ((((b.val * 1 + 0) * 16 + c.val) * 9 + k) * 64 + h.val) * 64 + w.val
    omega)

/-! ## The padded image -/

/-- The image padded by one pixel on each side of its two spatial axes; the padding value is the integer zero
    converted to a float. -/
def padded (x : (⟨4, ![8, 256, 64, 64]⟩ : Shape).Idx → EReal) : (⟨4, ![8, 256, 66, 66]⟩ : Shape).Idx → EReal :=
  pad ⟨4, ![8, 256, 66, 66]⟩ ![0, 0, 1, 1] ![0, 0, 1, 1] ![0, 0, 0, 0] x
    (sitofp (F := Ideal) .f32 (constantI (⟨0, ![]⟩ : Shape) 32 0#32)) (by decide) (by decide)

/-- The image with its channel axis split, then padded, read at `(b, g, c, hh, ww)`: the padded image at channel
    `g * 16 + c`. -/
theorem padded_split (x : (⟨4, ![8, 256, 64, 64]⟩ : Shape).Idx → EReal)
    (hc : (⟨4, ![8, 256, 64, 64]⟩ : Shape).ShapeCasts ⟨5, ![8, 16, 16, 64, 64]⟩)
    (h5 : (⟨5, ![8, 16, 16, 64, 64]⟩ : Shape).Pads ![0, 0, 0, 1, 1] ![0, 0, 0, 1, 1] ![0, 0, 0, 0, 0] ⟨5, ![8, 16, 16, 66, 66]⟩)
    (hu : 0 < (⟨0, ![]⟩ : Shape).numel) (b : Fin 8) (g c : Fin 16) (hh ww : Fin 66) :
    pad ⟨5, ![8, 16, 16, 66, 66]⟩ ![0, 0, 0, 1, 1] ![0, 0, 0, 1, 1] ![0, 0, 0, 0, 0]
        (shapeCast ⟨5, ![8, 16, 16, 64, 64]⟩ x hc)
        (sitofp (F := Ideal) .f32 (constantI (⟨0, ![]⟩ : Shape) 32 0#32)) h5 hu (ix5 b g c hh ww)
      = padded x (ix4 b (chan g c) hh ww) :=
  pad_split x _ hu hc h5 _ b g c hh ww

end Cert.TapSum

end
-- ==== Proof.KernelArray.lean ====
/-
  From the grid's blocks to the whole output array.

  Before the region, the host splits the image's channel axis into (group, weight channel), pads the two spatial
  axes by one pixel, and views each weight row as a 64 × 64 picture. Grid step `(b, g)` is handed the padded
  16-channel image block of sample `b` and group `g` and the nine weight pictures of sample `b` (the same for
  all sixteen groups), and writes block `(b, g)` of the output. So what a step writes is block `(b, g)` of the
  specification's array; the 8 × 16 blocks tile the output; hence the output array IS the specification's.
-/
import proofs.«155428_j42322607734845_1_alg».proof.Proof.Gen.KernelIdeal.Frame
import proofs.«155428_j42322607734845_1_alg».proof.Proof.BlockEntry
import proofs.«155428_j42322607734845_1_alg».proof.Proof.Layout
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.TapSum
open Idealize.ShloMosaic.Pipeline (Dat)

variable (m : (ℓ : Loc nD τ sig) → Buf (Elt Ideal) ℓ) (ρ : Dev nD → PrngReg)

/-! ## What the region finds -/

/-- The region finds the image with its channel axis split and its spatial axes padded. -/
theorem image_found (c : Dev nD) :
    (V m c main_v1 : S8x16x16x66x66.Idx → EReal)
      = pad S8x16x16x66x66 ![0, 0, 0, 1, 1] ![0, 0, 0, 1, 1] ![0, 0, 0, 0, 0]
          (shapeCast S8x16x16x64x64 (m ((c : Thread nD τ).loc main_arg0)) shapeCasts_S8x256x64x64_S8x16x16x64x64)
          (sitofp (F := Ideal) .f32 (constantI S_ 32 0#32))
          pads_S8x16x16x64x64_S8x16x16x66x66_000_000_000_110_110 h_S_ := by
  dsimp only [V, V0]
  simp only [hostOps0, hostOps0_1, hostOps0_2, List.flatten_cons, List.flatten_nil, List.append_nil, List.cons_append,
    List.nil_append]
  after_results
  rfl

/-- The region finds each weight row viewed as a 64 × 64 picture. -/
theorem weights_found (c : Dev nD) :
    (V m c main_v2 : S8x16x9x64x64.Idx → EReal)
      = shapeCast S8x16x9x64x64 (m ((c : Thread nD τ).loc main_arg1)) shapeCasts_S8x16x9x4096_S8x16x9x64x64 := by
  dsimp only [V, V0]
  simp only [hostOps0, hostOps0_1, hostOps0_2, List.flatten_cons, List.flatten_nil, List.append_nil, List.cons_append,
    List.nil_append]
  after_results
  rfl

/-! ## One grid step -/

/-- One grid step's stored block from what it was handed: if the image block holds the padded image of sample
    `bb` at the channels of group `gg`, and the weight block holds the weights of sample `bb`, the stored block
    holds the specification's entries of `(bb, gg)`. -/
theorem stored_of_found (x0 : Vec Ideal S1x1x16x66x66 .f32) (x1 : Vec Ideal S1x16x9x64x64 .f32)
    (x : S8x256x64x64.Idx → EReal) (wt : S8x16x9x4096.Idx → EReal) (bb : Fin 8) (gg : Fin 16)
    (h0 : ∀ (c : Fin 16) (hh ww : Fin 66), x0 (ix5 (0 : Fin 1) (0 : Fin 1) c hh ww) = padded x (ix4 bb (chan gg c) hh ww))
    (h1 : ∀ (c : Fin 16) (k : Fin 9) (h w : Fin 64), x1 (ix5 (0 : Fin 1) c k h w) = wt (ix4 bb c k (pix h w)))
    (y : S1x1x16x64x64.Idx) :
    out0_2 x0 x1 y = entry (padded x) wt bb gg (y 2) (y 3) (y 4) := by
  obtain ⟨y0, y1, c, h, w, rfl⟩ : ∃ (y0 y1 : Fin 1) (c : Fin 16) (h w : Fin 64), y = ix5 y0 y1 c h w :=
    ⟨y 0, y 1, y 2, y 3, y 4, eq_ix5 y⟩
  obtain rfl : y0 = 0 := Subsingleton.elim _ _
  obtain rfl : y1 = 0 := Subsingleton.elim _ _
  rw [BlockEntry.stored]
  simp only [h0, h1]
  rfl

/-! ## The index maps, decided over the 128 grid steps -/

/-- The image block and the output block of a step sit at the same (sample, group); the weight block at the
    same sample; every other block index is zero. -/
theorem idx_facts : ∀ t : Fin cfg0.N,
    win0_0.index t (0 : Fin 5) = win0_2.index t (0 : Fin 5) ∧ win0_0.index t (1 : Fin 5) = win0_2.index t (1 : Fin 5)
    ∧ win0_0.index t (2 : Fin 5) = 0 ∧ win0_0.index t (3 : Fin 5) = 0 ∧ win0_0.index t (4 : Fin 5) = 0
    ∧ win0_1.index t (0 : Fin 5) = win0_2.index t (0 : Fin 5) ∧ win0_1.index t (1 : Fin 5) = 0
    ∧ win0_1.index t (2 : Fin 5) = 0 ∧ win0_1.index t (3 : Fin 5) = 0 ∧ win0_1.index t (4 : Fin 5) = 0
    ∧ win0_2.index t (0 : Fin 5) ≤ 7 ∧ win0_2.index t (1 : Fin 5) ≤ 15
    ∧ win0_2.index t (2 : Fin 5) = 0 ∧ win0_2.index t (3 : Fin 5) = 0 ∧ win0_2.index t (4 : Fin 5) = 0 :=
  (by decide +kernel : ∀ t : Fin grid0.N, _)

/-- Every (sample, group) is some step's. -/
theorem idx_onto : ∀ (q0 : Fin 8) (q1 : Fin 16), ∃ t : Fin cfg0.N, win0_2.index t = ![q0.val, q1.val, 0, 0, 0] :=
  (by decide +kernel : ∀ (q0 : Fin 8) (q1 : Fin 16), ∃ t : Fin grid0.N, win0_2.index t = ![q0.val, q1.val, 0, 0, 0])

/-! ## The output array -/

/-- What the region leaves in its output array: the specification's array of the padded image and the weights. -/
def result5 (c : Dev nD) : S8x16x16x64x64.Idx → EReal :=
  Cert.TapSum.out (padded (m ((c : Thread nD τ).loc main_arg0))) (m ((c : Thread nD τ).loc main_arg1))

/-- WHAT STEP `t` WRITES BACK is block `t` of that array. -/
theorem flushed_eq (c : Dev nD) (t : Fin cfg0.N) :
    (dats m 0 c).flushed 2 t = ((cfg0.win 2).blk t).view.read (Elt Ideal) (result5 m c) := by
  show (cfg0.win 2).cut (grid0.coords t) ((dats m 0 c).after 2 t) = _
  rw [after0_2]
  obtain ⟨a0, a1, a2, a3, a4, b0, b1, b2, b3, b4, l0, l1, z2, z3, z4⟩ := idx_facts t
  funext y
  have hy0 : (y 0).val < 1 := (y 0).isLt
  have hy1 : (y 1).val < 1 := (y 1).isLt
  have hy2 : (y 2).val < 16 := (y 2).isLt
  have hy3 : (y 3).val < 64 := (y 3).isLt
  have hy4 : (y 4).val < 64 := (y 4).isLt
  show out0_2 (iblk m c 0 t) (iblk m c 1 t) y = result5 m c (((cfg0.win 2).blk t).view.emb y)
  refine (stored_of_found (iblk m c 0 t) (iblk m c 1 t) (m ((c : Thread nD τ).loc main_arg0))
      (m ((c : Thread nD τ).loc main_arg1)) ⟨win0_2.index t (0 : Fin 5), by omega⟩ ⟨win0_2.index t (1 : Fin 5), by omega⟩
      ?_ ?_ y).trans ?_
  · -- the image block
    intro cc hh ww
    have := cc.isLt; have := hh.isLt; have := ww.isLt
    show V m c main_v1 (((cfg0.win 0).blk t).view.emb (ix5 (0 : Fin 1) (0 : Fin 1) cc hh ww)) = _
    rw [image_found]
    refine Eq.trans (congrArg _ ?_) (padded_split _ _ _ h_S_ ⟨win0_2.index t (0 : Fin 5), by omega⟩
      ⟨win0_2.index t (1 : Fin 5), by omega⟩ cc hh ww)
    funext a; apply Fin.ext
    match a with
    | ⟨0, _⟩ => show win0_0.index t (0 : Fin 5) * 1 + 1 * 0 = win0_2.index t (0 : Fin 5); omega
    | ⟨1, _⟩ => show win0_0.index t (1 : Fin 5) * 1 + 1 * 0 = win0_2.index t (1 : Fin 5); omega
    | ⟨2, _⟩ => show win0_0.index t (2 : Fin 5) * 16 + 1 * cc.val = cc.val; omega
    | ⟨3, _⟩ => show win0_0.index t (3 : Fin 5) * 66 + 1 * hh.val = hh.val; omega
    | ⟨4, _⟩ => show win0_0.index t (4 : Fin 5) * 66 + 1 * ww.val = ww.val; omega
  · -- the weight block
    intro cc k h w
    have := cc.isLt; have := k.isLt; have := h.isLt; have := w.isLt
    show V m c main_v2 (((cfg0.win 1).blk t).view.emb (ix5 (0 : Fin 1) cc k h w)) = _
    rw [weights_found]
    refine Eq.trans (congrArg _ ?_) (weight_view _ _ ⟨win0_2.index t (0 : Fin 5), by omega⟩ cc k h w)
    funext a; apply Fin.ext
    match a with
    | ⟨0, _⟩ => show win0_1.index t (0 : Fin 5) * 1 + 1 * 0 = win0_2.index t (0 : Fin 5); omega
    | ⟨1, _⟩ => show win0_1.index t (1 : Fin 5) * 16 + 1 * cc.val = cc.val; omega
    | ⟨2, _⟩ => show win0_1.index t (2 : Fin 5) * 9 + 1 * k.val = k.val; omega
    | ⟨3, _⟩ => show win0_1.index t (3 : Fin 5) * 64 + 1 * h.val = h.val; omega
    | ⟨4, _⟩ => show win0_1.index t (4 : Fin 5) * 64 + 1 * w.val = w.val; omega
  · -- the entry of the array under the stored block's entry
    have e0 : (((cfg0.win 2).blk t).view.emb y) 0 = (⟨win0_2.index t (0 : Fin 5), by omega⟩ : Fin 8) :=
      Fin.ext (by show win0_2.index t (0 : Fin 5) * 1 + 1 * (y 0).val = win0_2.index t (0 : Fin 5); omega)
    have e1 : (((cfg0.win 2).blk t).view.emb y) 1 = (⟨win0_2.index t (1 : Fin 5), by omega⟩ : Fin 16) :=
      Fin.ext (by show win0_2.index t (1 : Fin 5) * 1 + 1 * (y 1).val = win0_2.index t (1 : Fin 5); omega)
    have e2 : (((cfg0.win 2).blk t).view.emb y) 2 = y 2 :=
      Fin.ext (by show win0_2.index t (2 : Fin 5) * 16 + 1 * (y 2).val = (y 2).val; omega)
    have e3 : (((cfg0.win 2).blk t).view.emb y) 3 = y 3 :=
      Fin.ext (by show win0_2.index t (3 : Fin 5) * 64 + 1 * (y 3).val = (y 3).val; omega)
    have e4 : (((cfg0.win 2).blk t).view.emb y) 4 = y 4 :=
      Fin.ext (by show win0_2.index t (4 : Fin 5) * 64 + 1 * (y 4).val = (y 4).val; omega)
    show _ = entry _ _ ((((cfg0.win 2).blk t).view.emb y) 0) ((((cfg0.win 2).blk t).view.emb y) 1)
      ((((cfg0.win 2).blk t).view.emb y) 2) ((((cfg0.win 2).blk t).view.emb y) 3) ((((cfg0.win 2).blk t).view.emb y) 4)
    rw [e0, e1, e2, e3, e4]

/-- An index of the output array is in step `t`'s block iff each coordinate is in the block's range. -/
theorem mem_blk (t : Fin cfg0.N) (i : S8x16x16x64x64.Idx) :
    i ∈ ((cfg0.win 2).blk t).view.set ↔ ∀ a : Fin 5, win0_2.index t a * S1x1x16x64x64.size a ≤ (i a).val
      ∧ (i a).val < win0_2.index t a * S1x1x16x64x64.size a + S1x1x16x64x64.size a := by
  show i ∈ ((View.whole main_v3).slice (win0_2.rect t)).set ↔ _
  rw [View.set_slice_whole, Rect.mem_set_unit]
  exact Iff.rfl

/-- The blocks tile the output array: entry `(b, g, …)` is in the block of the step at (sample, group) = `(b, g)`. -/
theorem cover (i : S8x16x16x64x64.Idx) :
    ∃ t : Fin cfg0.N, (cfg0.win 2).flush t = true ∧ i ∈ ((cfg0.win 2).blk t).view.set := by
  obtain ⟨t, ht⟩ := idx_onto (i 0) (i 1)
  have q0 : win0_2.index t (0 : Fin 5) = (i 0).val := congrFun ht 0
  have q1 : win0_2.index t (1 : Fin 5) = (i 1).val := congrFun ht 1
  have q2 : win0_2.index t (2 : Fin 5) = 0 := congrFun ht 2
  have q3 : win0_2.index t (3 : Fin 5) = 0 := congrFun ht 3
  have q4 : win0_2.index t (4 : Fin 5) = 0 := congrFun ht 4
  have i2 : (i 2).val < 16 := (i 2).isLt
  have i3 : (i 3).val < 64 := (i 3).isLt
  have i4 : (i 4).val < 64 := (i 4).isLt
  refine ⟨t, flush0_2 t, ?_⟩
  rw [mem_blk]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 1 ≤ (i 1).val ∧ (i 1).val < win0_2.index t (1 : Fin 5) * 1 + 1; omega
  | ⟨2, _⟩ => show win0_2.index t (2 : Fin 5) * 16 ≤ (i 2).val ∧ (i 2).val < win0_2.index t (2 : Fin 5) * 16 + 16; omega
  | ⟨3, _⟩ => show win0_2.index t (3 : Fin 5) * 64 ≤ (i 3).val ∧ (i 3).val < win0_2.index t (3 : Fin 5) * 64 + 64; omega
  | ⟨4, _⟩ => show win0_2.index t (4 : Fin 5) * 64 ≤ (i 4).val ∧ (i 4).val < win0_2.index t (4 : Fin 5) * 64 + 64; omega

/-- THE OUTPUT ARRAY after the region is the specification's array. -/
theorem final (c : Dev nD) : (dats m 0 c).arrAt 2 cfg0.N = result5 m c :=
  (dats m 0 c).arrAt_eq_of_cover 2 (result5 m c) (fun t _ => flushed_eq m c t) cover

end Cert.KernelIdeal.ArrayValue

end
-- ==== Proof.KernelRun.lean ====
/-
  The kernel's whole run. After the region the host views the output array [8, 16, 16, 64, 64] as
  [8, 256, 64, 64] (group `g` and weight channel `c` become channel `g * 16 + c` again): the program's result is that
  view of the specification's array, and the two arguments end as they were launched.
-/
import proofs.«155428_j42322607734845_1_alg».proof.Proof.KernelArray

noncomputable section

namespace Cert.KernelIdeal.ArrayValue

open Cert.KernelIdeal Cert.KernelIdeal.Gen Idealize.ShloMosaic Idealize.ShloMosaic.TcCoe Idealize.SL.Sem
open Idealize.ShloMosaic.ValueIdx Cert.TapSum
open Idealize.ShloMosaic.Pipeline (Dat)

variable (m : (ℓ : Loc nD τ sig) → Buf (Elt Ideal) ℓ) (ρ : Dev nD → PrngReg)

/-- The host's last line reads the region's output array and writes its [8, 256, 64, 64] view. -/
theorem tail_eq (c : Dev nD) :
    Pipeline.afterTail₀ cfgs (dats m) 0 (V0 m) [hostOps1] c main_v4
      = shapeCast S8x256x64x64 (result5 m c) shapeCasts_S8x16x16x64x64_S8x256x64x64 := by
  unfold Pipeline.afterTail₀
  show StableHlo.after hostOps1 _ (Proc.devRef .tc main_v4) = _
  after_results
  -- the line's operand is the region's output array as the region left it
  have e : Pipeline.withArrays (cfgs 0).spec c (V0 m c) (fun w => (dats m 0 c).arrAt w (cfgs 0).N) (Proc.devRef .tc main_v3)
      = result5 m c :=
    (Pipeline.withArrays_arr spec0 launch0.win.arr_inj c _ _ 2).trans (final m c)
  rw [e]
  rfl

/-- THE KERNEL'S RUN over the extended reals: every weakly fair execution ends, without a fault, with the result at
    the [8, 256, 64, 64] view of the specification's array and both arguments as launched. -/
theorem run : θ_run defs (onTc (τ := τ) (main (F := Ideal))) ⟨m, fun _ => 0, ρ⟩ fun r => ∀ c : Dev nD,
      r.2.mem ((c : Thread nD τ).loc main_v4)
          = shapeCast S8x256x64x64 (result5 m c) shapeCasts_S8x16x16x64x64_S8x256x64x64
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.ArrayValue

end
-- ==== Proof.RefEntry.lean ====
/-
  The reference, entry by entry.

  The reference pads the [8, 256, 64, 64] image by one zero pixel on each side of its two spatial axes, and for
  each of the nine taps `(di, dj)` cuts the 64 × 64 window of the padded image at that offset, views it with the
  channel axis split into (group, weight channel), multiplies it by row `k = 3 * di + dj` of the weights —
  viewed as a 64 × 64 picture and repeated over the sixteen groups — and adds the product to a running sum that
  starts as the zero array, tap 0 first. Read at `(b, g, c, h, w)`, the running sum after the ninth tap is the
  nine-term sum of the specification.
-/
import proofs.«155428_j42322607734845_1_alg».proof.Proof.Gen.ReferenceIdeal.Read
import proofs.«155428_j42322607734845_1_alg».proof.Proof.Layout
import Idealize.ShloMosaic.PureOps.Ideal.Laws

noncomputable section

namespace Cert.ReferenceIdeal.RefEntry

open Cert.ReferenceIdeal Cert.ReferenceIdeal.Gen Cert.ReferenceIdeal.Read Idealize.ShloMosaic Idealize.ShloMosaic.ValueIdx
  Cert.TapSum

/-- The reference's padded image is the specification's. -/
theorem padded_eq (x : (⟨S8x256x64x64, .f32⟩ : BufTy).Contents (Elt Ideal)) : val_main_v0 (F := Ideal) x = padded x := rfl

/-! ## The nine windows of the padded image, channel axis split, read at `(b, g, c, h, w)` -/

theorem img0 (x : (⟨S8x256x64x64, .f32⟩ : BufTy).Contents (Elt Ideal)) (b : Fin 8) (g c : Fin 16) (h w : Fin 64) :
    val_main_v4 (F := Ideal) x (ix5 b g c h w)
      = val_main_v0 (F := Ideal) x (ix4 b (chan g c) (shift 0 h) (shift 0 w)) := by
  unfold val_main_v4 val_main_v3
  exact window_view _ 0 0 _ _ b g c h w

theorem img1 (x : (⟨S8x256x64x64, .f32⟩ : BufTy).Contents (Elt Ideal)) (b : Fin 8) (g c : Fin 16) (h w : Fin 64) :
    val_main_v11 (F := Ideal) x (ix5 b g c h w)
      = val_main_v0 (F := Ideal) x (ix4 b (chan g c) (shift 0 h) (shift 1 w)) := by
  unfold val_main_v11 val_main_v10
  exact window_view _ 0 1 _ _ b g c h w

theorem img2 (x : (⟨S8x256x64x64, .f32⟩ : BufTy).Contents (Elt Ideal)) (b : Fin 8) (g c : Fin 16) (h w : Fin 64) :
    val_main_v18 (F := Ideal) x (ix5 b g c h w)
      = val_main_v0 (F := Ideal) x (ix4 b (chan g c) (shift 0 h) (shift 2 w)) := by
  unfold val_main_v18 val_main_v17
  exact window_view _ 0 2 _ _ b g c h w

theorem img3 (x : (⟨S8x256x64x64, .f32⟩ : BufTy).Contents (Elt Ideal)) (b : Fin 8) (g c : Fin 16) (h w : Fin 64) :
    val_main_v25 (F := Ideal) x (ix5 b g c h w)
      = val_main_v0 (F := Ideal) x (ix4 b (chan g c) (shift 1 h) (shift 0 w)) := by
  unfold val_main_v25 val_main_v24
  exact window_view _ 1 0 _ _ b g c h w

theorem img4 (x : (⟨S8x256x64x64, .f32⟩ : BufTy).Contents (Elt Ideal)) (b : Fin 8) (g c : Fin 16) (h w : Fin 64) :
    val_main_v32 (F := Ideal) x (ix5 b g c h w)
      = val_main_v0 (F := Ideal) x (ix4 b (chan g c) (shift 1 h) (shift 1 w)) := by
  unfold val_main_v32 val_main_v31
  exact window_view _ 1 1 _ _ b g c h w

theorem img5 (x : (⟨S8x256x64x64, .f32⟩ : BufTy).Contents (Elt Ideal)) (b : Fin 8) (g c : Fin 16) (h w : Fin 64) :
    val_main_v39 (F := Ideal) x (ix5 b g c h w)
      = val_main_v0 (F := Ideal) x (ix4 b (chan g c) (shift 1 h) (shift 2 w)) := by
  unfold val_main_v39 val_main_v38
  exact window_view _ 1 2 _ _ b g c h w

theorem img6 (x : (⟨S8x256x64x64, .f32⟩ : BufTy).Contents (Elt Ideal)) (b : Fin 8) (g c : Fin 16) (h w : Fin 64) :
    val_main_v46 (F := Ideal) x (ix5 b g c h w)
      = val_main_v0 (F := Ideal) x (ix4 b (chan g c) (shift 2 h) (shift 0 w)) := by
  unfold val_main_v46 val_main_v45
  exact window_view _ 2 0 _ _ b g c h w

theorem img7 (x : (⟨S8x256x64x64, .f32⟩ : BufTy).Contents (Elt Ideal)) (b : Fin 8) (g c : Fin 16) (h w : Fin 64) :
    val_main_v53 (F := Ideal) x (ix5 b g c h w)
      = val_main_v0 (F := Ideal) x (ix4 b (chan g c) (shift 2 h) (shift 1 w)) := by
  unfold val_main_v53 val_main_v52
  exact window_view _ 2 1 _ _ b g c h w

theorem img8 (x : (⟨S8x256x64x64, .f32⟩ : BufTy).Contents (Elt Ideal)) (b : Fin 8) (g c : Fin 16) (h w : Fin 64) :
    val_main_v60 (F := Ideal) x (ix5 b g c h w)
      = val_main_v0 (F := Ideal) x (ix4 b (chan g c) (shift 2 h) (shift 2 w)) := by
  unfold val_main_v60 val_main_v59
  exact window_view _ 2 2 _ _ b g c h w

/-! ## The nine weight rows as pictures repeated over the groups, read at `(b, g, c, h, w)` -/

theorem wgt0 (wt : (⟨S8x16x9x4096, .f32⟩ : BufTy).Contents (Elt Ideal)) (b : Fin 8) (g c : Fin 16) (h w : Fin 64) :
    val_main_v7 (F := Ideal) wt (ix5 b g c h w) = wt (ix4 b c 0 (pix h w)) := by
  unfold val_main_v7 val_main_v6 val_main_v5 val_main_v1
  exact tap_view wt 0 _ _ _ _ b g c h w

theorem wgt1 (wt : (⟨S8x16x9x4096, .f32⟩ : BufTy).Contents (Elt Ideal)) (b : Fin 8) (g c : Fin 16) (h w : Fin 64) :
    val_main_v14 (F := Ideal) wt (ix5 b g c h w) = wt (ix4 b c 1 (pix h w)) := by
  unfold val_main_v14 val_main_v13 val_main_v12 val_main_v1
  exact tap_view wt 1 _ _ _ _ b g c h w

theorem wgt2 (wt : (⟨S8x16x9x4096, .f32⟩ : BufTy).Contents (Elt Ideal)) (b : Fin 8) (g c : Fin 16) (h w : Fin 64) :
    val_main_v21 (F := Ideal) wt (ix5 b g c h w) = wt (ix4 b c 2 (pix h w)) := by
  unfold val_main_v21 val_main_v20 val_main_v19 val_main_v1
  exact tap_view wt 2 _ _ _ _ b g c h w

theorem wgt3 (wt : (⟨S8x16x9x4096, .f32⟩ : BufTy).Contents (Elt Ideal)) (b : Fin 8) (g c : Fin 16) (h w : Fin 64) :
    val_main_v28 (F := Ideal) wt (ix5 b g c h w) = wt (ix4 b c 3 (pix h w)) := by
  unfold val_main_v28 val_main_v27 val_main_v26 val_main_v1
  exact tap_view wt 3 _ _ _ _ b g c h w

theorem wgt4 (wt : (⟨S8x16x9x4096, .f32⟩ : BufTy).Contents (Elt Ideal)) (b : Fin 8) (g c : Fin 16) (h w : Fin 64) :
    val_main_v35 (F := Ideal) wt (ix5 b g c h w) = wt (ix4 b c 4 (pix h w)) := by
  unfold val_main_v35 val_main_v34 val_main_v33 val_main_v1
  exact tap_view wt 4 _ _ _ _ b g c h w

theorem wgt5 (wt : (⟨S8x16x9x4096, .f32⟩ : BufTy).Contents (Elt Ideal)) (b : Fin 8) (g c : Fin 16) (h w : Fin 64) :
    val_main_v42 (F := Ideal) wt (ix5 b g c h w) = wt (ix4 b c 5 (pix h w)) := by
  unfold val_main_v42 val_main_v41 val_main_v40 val_main_v1
  exact tap_view wt 5 _ _ _ _ b g c h w

theorem wgt6 (wt : (⟨S8x16x9x4096, .f32⟩ : BufTy).Contents (Elt Ideal)) (b : Fin 8) (g c : Fin 16) (h w : Fin 64) :
    val_main_v49 (F := Ideal) wt (ix5 b g c h w) = wt (ix4 b c 6 (pix h w)) := by
  unfold val_main_v49 val_main_v48 val_main_v47 val_main_v1
  exact tap_view wt 6 _ _ _ _ b g c h w

theorem wgt7 (wt : (⟨S8x16x9x4096, .f32⟩ : BufTy).Contents (Elt Ideal)) (b : Fin 8) (g c : Fin 16) (h w : Fin 64) :
    val_main_v56 (F := Ideal) wt (ix5 b g c h w) = wt (ix4 b c 7 (pix h w)) := by
  unfold val_main_v56 val_main_v55 val_main_v54 val_main_v1
  exact tap_view wt 7 _ _ _ _ b g c h w

theorem wgt8 (wt : (⟨S8x16x9x4096, .f32⟩ : BufTy).Contents (Elt Ideal)) (b : Fin 8) (g c : Fin 16) (h w : Fin 64) :
    val_main_v63 (F := Ideal) wt (ix5 b g c h w) = wt (ix4 b c 8 (pix h w)) := by
  unfold val_main_v63 val_main_v62 val_main_v61 val_main_v1
  exact tap_view wt 8 _ _ _ _ b g c h w

/-! ## The running sum -/

/-- The running sum after the ninth tap, read at `(b, g, c, h, w)`: each stage is one more product added. -/
theorem sum_at (x : (⟨S8x256x64x64, .f32⟩ : BufTy).Contents (Elt Ideal)) (wt : (⟨S8x16x9x4096, .f32⟩ : BufTy).Contents (Elt Ideal))
    (b : Fin 8) (g c : Fin 16) (h w : Fin 64) :
    val_main_v65 (F := Ideal) x wt (ix5 b g c h w) = entry (padded x) wt b g c h w := by
  rw [val_main_v65_apply, Ideal.addf_def, val_main_v64_apply, Ideal.mulf_def,
    val_main_v58_apply, Ideal.addf_def, val_main_v57_apply, Ideal.mulf_def,
    val_main_v51_apply, Ideal.addf_def, val_main_v50_apply, Ideal.mulf_def,
    val_main_v44_apply, Ideal.addf_def, val_main_v43_apply, Ideal.mulf_def,
    val_main_v37_apply, Ideal.addf_def, val_main_v36_apply, Ideal.mulf_def,
    val_main_v30_apply, Ideal.addf_def, val_main_v29_apply, Ideal.mulf_def,
    val_main_v23_apply, Ideal.addf_def, val_main_v22_apply, Ideal.mulf_def,
    val_main_v16_apply, Ideal.addf_def, val_main_v15_apply, Ideal.mulf_def,
    val_main_v9_apply, Ideal.addf_def, val_main_v8_apply, Ideal.mulf_def,
    val_main_v2_apply, val_main_cst_apply,
    img0, img1, img2, img3, img4, img5, img6, img7, img8,
    wgt0, wgt1, wgt2, wgt3, wgt4, wgt5, wgt6, wgt7, wgt8,
    padded_eq, Ideal.ofBits_def, Ideal.ofBits_zero_f32]
  rfl

/-- So the running sum is the specification's array … -/
theorem sum_eq (x : (⟨S8x256x64x64, .f32⟩ : BufTy).Contents (Elt Ideal)) (wt : (⟨S8x16x9x4096, .f32⟩ : BufTy).Contents (Elt Ideal)) :
    val_main_v65 (F := Ideal) x wt = Cert.TapSum.out (padded x) wt := by
  funext i
  obtain ⟨b, g, c, h, w, rfl⟩ : ∃ (b : Fin 8) (g c : Fin 16) (h w : Fin 64), i = ix5 b g c h w :=
    ⟨i 0, i 1, i 2, i 3, i 4, eq_ix5 i⟩
  rw [out_ix5]
  exact sum_at x wt b g c h w

/-- … and the reference's result its last re-view, [8, 16, 16, 64, 64] as [8, 256, 64, 64]. -/
theorem result_eq (x : (⟨S8x256x64x64, .f32⟩ : BufTy).Contents (Elt Ideal)) (wt : (⟨S8x16x9x4096, .f32⟩ : BufTy).Contents (Elt Ideal)) :
    val_main_v66 (F := Ideal) x wt
      = shapeCast S8x256x64x64 (Cert.TapSum.out (padded x) wt) shapeCasts_S8x16x16x64x64_S8x256x64x64 := by
  unfold val_main_v66
  rw [sum_eq]

end Cert.ReferenceIdeal.RefEntry

end
-- ==== Proof.lean ====
/-
  A per-pixel 3 × 3 stencil with weights of its own at every pixel, shared by sixteen groups of sixteen
  channels: the kernel against its reference, over the extended reals.

  Both programs pad the [8, 256, 64, 64] image by one zero pixel around its two spatial axes and compute, for
  sample `b`, channel `g * 16 + c` and pixel `(h, w)`,

      ((0 + P₀ · W₀) + P₁ · W₁) + … + P₈ · W₈,
      Pₖ = padded (b, g * 16 + c, di + h, dj + w),   Wₖ = weight (b, c, k, h * 64 + w),   k = 3 · di + dj,

  the nine products added in the same order from the same zero (Proof/TapSum.lean). The kernel works on the
  [8, 16, 16, ·, ·] view of the image, one (sample, group) block per grid step, and views its output back as
  [8, 256, 64, 64]; the reference cuts nine windows of the whole padded image and adds nine whole-array products.
  The two differ only in where the channel axis is split and where the padding is done, which changes no entry
  (Proof/Layout.lean), so the two results are equal entry by entry with no law of arithmetic used and the inputs'
  finiteness never needed.

  The kernel's and the reference's runs without faults and with unchanged arguments are the generated frame
  runs; the idealized kernel is the kernel's own text read over the extended reals (no rewrite was applied).
-/
import proofs.«155428_j42322607734845_1_alg».proof.Defs
import proofs.«155428_j42322607734845_1_alg».proof.Proof.Gen.Kernel
import proofs.«155428_j42322607734845_1_alg».proof.Proof.Gen.Kernel.Skeleton
import proofs.«155428_j42322607734845_1_alg».proof.Proof.Gen.Kernel.Launch
import proofs.«155428_j42322607734845_1_alg».proof.Proof.Gen.Kernel.Points
import proofs.«155428_j42322607734845_1_alg».proof.Proof.Gen.Kernel.Frame
import proofs.«155428_j42322607734845_1_alg».proof.Proof.Gen.KernelIdeal
import proofs.«155428_j42322607734845_1_alg».proof.Proof.Gen.KernelIdeal.Skeleton
import proofs.«155428_j42322607734845_1_alg».proof.Proof.Gen.KernelIdeal.Launch
import proofs.«155428_j42322607734845_1_alg».proof.Proof.Gen.KernelIdeal.Points
import proofs.«155428_j42322607734845_1_alg».proof.Proof.Gen.KernelIdeal.Frame
import proofs.«155428_j42322607734845_1_alg».proof.Proof.Gen.ReferenceIdeal
import proofs.«155428_j42322607734845_1_alg».proof.Proof.Gen.Pre_finite_inputs
import proofs.«155428_j42322607734845_1_alg».proof.Proof.Gen.ReferenceIdeal.Run
import proofs.«155428_j42322607734845_1_alg».proof.Proof.Gen.ReferenceIdeal.Read
import proofs.«155428_j42322607734845_1_alg».proof.Proof.KernelRun
import proofs.«155428_j42322607734845_1_alg».proof.Proof.RefEntry
import Idealize.ShloMosaic.Adequacy
import Idealize.ShloMosaic.Init

noncomputable section

namespace Cert.Proof

open Idealize.ShloMosaic Idealize.ShloMosaic.TcCoe Idealize.SL.Sem

/-- The kernel as printed runs without a fault and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the [8, 256, 64, 64] view of the specification's array of
    the same padded image and the same weights. -/
theorem algebraic : Cert.algebraic_KernelIdeal_ReferenceIdeal := by
  intro m ρ m' ρ' _ hagree
  refine ⟨fun c => shapeCast Cert.KernelIdeal.S8x256x64x64 (Cert.KernelIdeal.ArrayValue.result5 m c)
      Cert.KernelIdeal.Gen.shapeCasts_S8x16x16x64x64_S8x256x64x64, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, Cert.ReferenceIdeal.RefEntry.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
